-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S4x128 .f32) (main_arg10 : FVec F S4 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S4x128 .f32) (main_arg10 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S4x128 .f32) (main_arg10 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S128x4 : Shape := ⟨2, ![128, 4]⟩
abbrev S512x4 : Shape := ⟨2, ![512, 4]⟩
abbrev S1x4 : Shape := ⟨2, ![1, 4]⟩

abbrev nBuf : Space → Nat
  | .hbm => 84
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S4x128, .f32⟩
  | .hbm, ⟨10, _⟩ => ⟨S4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .bf16⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S128x128, .f32⟩
  | .hbm, ⟨44, _⟩ => ⟨S128x128, .f32⟩
  | .hbm, ⟨45, _⟩ => ⟨S100000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S100000x128, .f32⟩
  | .hbm, ⟨63, _⟩ => ⟨S_, .f32⟩
  | .hbm, ⟨64, _⟩ => ⟨S512x128, .f32⟩
  | .hbm, ⟨65, _⟩ => ⟨S100000x1, .i32⟩
  | .hbm, ⟨66, _⟩ => ⟨S512x128, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S512, .f32⟩
  | .hbm, ⟨71, _⟩ => ⟨S100000x1, .i32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512x1, .f32⟩
  | .hbm, ⟨77, _⟩ => ⟨S512x128, .f32⟩
  | .hbm, ⟨78, _⟩ => ⟨S512x128, .f32⟩
  | .hbm, ⟨79, _⟩ => ⟨S128x4, .f32⟩
  | .hbm, ⟨80, _⟩ => ⟨S512x4, .f32⟩
  | .hbm, ⟨81, _⟩ => ⟨S1x4, .f32⟩
  | .hbm, ⟨82, _⟩ => ⟨S512x4, .f32⟩
  | .hbm, ⟨83, _⟩ => ⟨S512x4, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S4x128_S128x4_1_0 : S4x128.Transposes [1, 0] S128x4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x4_S512x4_1_0_0_1_n_n_wf : DotDims.WF S512x128 S128x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x4_S512x4_1_0_0_1_n_n : DotDims S512x128 S128x4 S512x4 where
  lhsContracting := [1]
  rhsContracting := [0]
  lhsNonContracting := [0]
  rhsNonContracting := [1]
  lhsBatch := []
  rhsBatch := []
  wf := dot_S512x128_S128x4_S512x4_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S128x4 : Shape := ⟨2, ![128, 4]⟩
abbrev S512x4 : Shape := ⟨2, ![512, 4]⟩
abbrev S1x4 : Shape := ⟨2, ![1, 4]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S4x128, .f32⟩
  | .hbm, ⟨10, _⟩ => ⟨S4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S512x128, .f32⟩
  | .hbm, ⟨82, _⟩ => ⟨S100000x1, .i32⟩
  | .hbm, ⟨83, _⟩ => ⟨S512x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S512, .f32⟩
  | .hbm, ⟨88, _⟩ => ⟨S100000x1, .i32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512x1, .f32⟩
  | .hbm, ⟨94, _⟩ => ⟨S512x128, .f32⟩
  | .hbm, ⟨95, _⟩ => ⟨S512x128, .f32⟩
  | .hbm, ⟨96, _⟩ => ⟨S128x4, .f32⟩
  | .hbm, ⟨97, _⟩ => ⟨S512x4, .f32⟩
  | .hbm, ⟨98, _⟩ => ⟨S1x4, .f32⟩
  | .hbm, ⟨99, _⟩ => ⟨S512x4, .f32⟩
  | .hbm, ⟨100, _⟩ => ⟨S512x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S4x128_S128x4_1_0 : S4x128.Transposes [1, 0] S128x4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x4_S512x4_1_0_0_1_n_n_wf : DotDims.WF S512x128 S128x4 S512x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x4_S512x4_1_0_0_1_n_n : DotDims S512x128 S128x4 S512x4 where
  lhsContracting := [1]
  rhsContracting := [0]
  lhsNonContracting := [0]
  rhsNonContracting := [1]
  lhsBatch := []
  rhsBatch := []
  wf := dot_S512x128_S128x4_S512x4_1_0_0_1_n_n_wf

class Facts : Prop extends Facts₀ where

variable [Facts]
-- ==== Proof.KernelRun.lean ====
/-
  The kernel program's run with its result kept.

  The program is five segments: host operations, the first layer's grid, host operations, the second
  layer's grid, host operations.  The buffer contents at each boundary are a fold from the launch
  memory; after the last segment every unscoped buffer of the TensorCore holds the fold's last
  contents.  The frame claim reads only the argument arrays off that state; here the result buffer is
  read off it as well, so the run ends with the result at the fold's value and the arguments as
  launched.
-/
import proofs.«121350_j6502580486349_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, its result buffer holding the
    last boundary's contents and its argument arrays what they held at launch. -/
theorem run_result : θ_run defs (onTc (τ := τ) (main (F := F))) ⟨m, fun _ => 0, ρ⟩ (fun r => ∀ c : Dev nD,
      r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v58 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.LayerSpec.lean ====
/-
  One layer of the graph convolution as a function on extended reals, index by index.

  For node `n` and output feature `j`:
  the neighbour sum of node `n` (row `n` of `a`) is scaled by the node's inverse degree `d n`,
  contracted with column `j` of the left weights; the node's own features (row `n` of `x`) are
  contracted with column `j` of the right weights; the bias `b j` is added; the result is
  clamped below at zero.  Both weight matrices are taken already transposed, contraction axis first.

  The two programs add the three terms in different orders — (left + right) + bias against
  (left + bias) + right — and addition of extended reals is commutative and associative, also at
  the infinities, so no finiteness is needed: `add_right_comm`.
-/
import Idealize.ShloMosaic.PureOps.Ideal
import Idealize.ShloMosaic.Lib.ValueIdx

noncomputable section

namespace Cert.Sage

open Idealize.ShloMosaic Idealize.ShloMosaic.ValueIdx

/-- The three terms of one output entry, in the order (left + right) + bias, clamped at zero. -/
def entry (left right bias : EReal) : EReal := max ((left + right) + bias) 0

/-- The same entry with the bias added before the right term. -/
theorem entry_bias_first (left right bias : EReal) : max ((left + bias) + right) 0 = entry left right bias := by
  unfold entry
  rw [add_right_comm]

/-- One layer over all 100000 nodes: `a` the neighbour sums, `x` the node features, `d` the inverse
    degrees as a column, `wl` / `wr` the transposed weights, `b` the bias. -/
def layer (a x : (⟨2, ![100000, 128]⟩ : Shape).Idx → EReal) (d : (⟨2, ![100000, 1]⟩ : Shape).Idx → EReal)
    (wl wr : (⟨2, ![128, 128]⟩ : Shape).Idx → EReal) (b : (⟨1, ![128]⟩ : Shape).Idx → EReal) :
    (⟨2, ![100000, 128]⟩ : Shape).Idx → EReal :=
  fun i => entry (∑ k : Fin 128, a (ix2 (i 0) k) * d (ix2 (i 0) (0 : Fin 1)) * wl (ix2 k (i 1)))
    (∑ k : Fin 128, x (ix2 (i 0) k) * wr (ix2 k (i 1))) (b (ix1 (i 1)))

theorem layer_apply (a x : (⟨2, ![100000, 128]⟩ : Shape).Idx → EReal) (d : (⟨2, ![100000, 1]⟩ : Shape).Idx → EReal)
    (wl wr : (⟨2, ![128, 128]⟩ : Shape).Idx → EReal) (b : (⟨1, ![128]⟩ : Shape).Idx → EReal)
    (n : Fin 100000) (j : Fin 128) :
    layer a x d wl wr b (ix2 n j) = entry (∑ k : Fin 128, a (ix2 n k) * d (ix2 n (0 : Fin 1)) * wl (ix2 k j))
      (∑ k : Fin 128, x (ix2 n k) * wr (ix2 k j)) (b (ix1 j)) := rfl

end Cert.Sage

end
-- ==== Proof.LibColumnBroadcast.lean ====
/-
  A column `[a, 1]` broadcast along its unit axis to `[a, b]`, read at an index: entry `(p, c)` of the
  result is entry `(p, 0)` of the column.  The vector form (`broadcastTo`) and the host form
  (`broadcastInDim` with the axes kept in place) are both given, for any sizes, together with the host
  forms that lift a vector `[b]` to a row `[1, b]`, a row `[1, b]` to `[a, b]`, and a scalar to any shape.
-/
import Idealize.ShloMosaic.Lib.Pipeline.Value
import Idealize.ShloMosaic.Lib.ValueIdx

namespace Cert.LibColumnBroadcast

open Idealize.ShloMosaic Idealize.ShloMosaic.ValueIdx

variable {α : Type}

/-- A column broadcast along its unit axis: entry `(p, c)` is the column's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]`, both axes kept in place. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]`, both axes kept in place. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's lift of a vector `[b]` to a row `[1, b]` along axis 1. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- The host's broadcast of a scalar to any shape: every entry is the scalar. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun a => a.elim0

end Cert.LibColumnBroadcast
-- ==== Proof.BodyValue.lean ====
/-
  What one grid point's body computes, entry by entry, on the extended reals.

  The body multiplies the block of neighbour sums by the block of inverse degrees (a column broadcast
  along the feature axis), contracts it with the left weights, contracts the block of node features
  with the right weights, adds the two products and then the bias (a row broadcast along the node
  axis), and clamps at zero.  Changes of float format are the identity here.  So entry `(p, q)` of the
  block is `Cert.Sage.entry` of the two contractions over the 128 input features and the bias `q`.
-/
import proofs.«121350_j6502580486349_2_alg».proof.Proof.Gen.KernelIdeal.Skeleton
import proofs.«121350_j6502580486349_2_alg».proof.Proof.LayerSpec
import proofs.«121350_j6502580486349_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.LibColumnBroadcast

/-- The left operand's index of the block product at output `(p, q)` and contraction index `k` is `(p, k)`. -/
theorem blockDot_lhs (p : Fin 4000) (q : Fin 128) (k : Fin 128) :
    dot_S4000x128_S128x128_S4000x128_1_0_0_1_n_n.lhsIdx (ix2 p q) ((contrEquiv1 dot_S4000x128_S128x128_S4000x128_1_0_0_1_n_n 128 rfl rfl).symm k) = ix2 p k := by
  have hk := contrEquiv1_symm_val dot_S4000x128_S128x128_S4000x128_1_0_0_1_n_n 128 rfl rfl k
  funext a
  apply Fin.ext
  match a with
  | ⟨0, _⟩ =>
    show (dot_S4000x128_S128x128_S4000x128_1_0_0_1_n_n.lhsIdx (ix2 p q) _ 0).val = p.val
    unfold DotDims.lhsIdx
    rw [dif_neg (show ¬(0 : Fin S4000x128.rank) ∈ dot_S4000x128_S128x128_S4000x128_1_0_0_1_n_n.lhsBatch by decide),
      dif_pos (show (0 : Fin S4000x128.rank) ∈ dot_S4000x128_S128x128_S4000x128_1_0_0_1_n_n.lhsNonContracting by decide)]
    rfl
  | ⟨1, _⟩ => exact (dot_S4000x128_S128x128_S4000x128_1_0_0_1_n_n.lhsIdx_val_of_single rfl _ _).trans hk

/-- The right operand's index of the block product at output `(p, q)` and contraction index `k` is `(k, q)`. -/
theorem blockDot_rhs (p : Fin 4000) (q : Fin 128) (k : Fin 128) :
    dot_S4000x128_S128x128_S4000x128_1_0_0_1_n_n.rhsIdx (ix2 p q) ((contrEquiv1 dot_S4000x128_S128x128_S4000x128_1_0_0_1_n_n 128 rfl rfl).symm k) = ix2 k q := by
  have hk := contrEquiv1_symm_val dot_S4000x128_S128x128_S4000x128_1_0_0_1_n_n 128 rfl rfl k
  funext a
  apply Fin.ext
  match a with
  | ⟨0, _⟩ => exact (dot_S4000x128_S128x128_S4000x128_1_0_0_1_n_n.rhsIdx_val_of_single rfl _ _).trans hk
  | ⟨1, _⟩ =>
    show (dot_S4000x128_S128x128_S4000x128_1_0_0_1_n_n.rhsIdx (ix2 p q) _ 1).val = q.val
    unfold DotDims.rhsIdx
    rw [dif_neg (show ¬(1 : Fin S128x128.rank) ∈ dot_S4000x128_S128x128_S4000x128_1_0_0_1_n_n.rhsBatch by decide),
      dif_pos (show (1 : Fin S128x128.rank) ∈ dot_S4000x128_S128x128_S4000x128_1_0_0_1_n_n.rhsNonContracting by decide)]
    rfl

/-- A block's matrix product into a zero accumulator, at entry `(p, q)`: the sum over the 128 shared features. -/
theorem blockDot_apply {φ₁ φ₂ : FTy} (l : FVec Ideal S4000x128 φ₁) (r : FVec Ideal S128x128 φ₂) (p : Fin 4000) (q : Fin 128) :
    matmul (F := Ideal) dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (contrEquiv1 dot_S4000x128_S128x128_S4000x128_1_0_0_1_n_n 128 rfl rfl).symm]
  refine Finset.sum_congr rfl fun k _ => ?_
  rw [blockDot_lhs, blockDot_rhs]

/-- Region 0's stored value at entry `(p, q)` of the block. -/
theorem pay0_apply (v0 : FVec Ideal S4000x128 .f32) (v2 : FVec Ideal S4000x1 .f32) (v7 : FVec Ideal S4000x128 .f32)
    (v9 v12 : FVec Ideal S128x128 .f32) (v17 : FVec Ideal S128 .f32) (p : Fin 4000) (q : Fin 128) :
    k0_pay1 (F := Ideal) v0 v2 v7 v9 v12 v17 (ix2 p q)
      = Cert.Sage.entry (∑ k : Fin 128, v0 (ix2 p k) * v2 (ix2 p (0 : Fin 1)) * v9 (ix2 k q))
          (∑ k : Fin 128, v7 (ix2 p k) * v12 (ix2 k q)) (v17 (ix1 q)) := by
  unfold k0_pay1 Cert.Sage.entry
  simp only [truncf_apply, maximumf_apply, addf_apply, broadcast_apply, blockDot_apply, mulf_apply,
    shapeCast_self, broadcastTo_a1_ab_apply, broadcastTo_1b_ab_apply, shapeCast_a_1a_apply]
  show max _ (Ideal.ofBits .f32 0x00000000#32) = _
  rw [Ideal.ofBits_zero_f32]

/-- Region 1's stored value at entry `(p, q)` of the block: the same function, its node features
    arriving in the narrower float format. -/
theorem pay1_apply (v0 : FVec Ideal S4000x128 .f32) (v2 : FVec Ideal S4000x1 .f32) (v7 : FVec Ideal S4000x128 .bf16)
    (v9 v12 : FVec Ideal S128x128 .f32) (v17 : FVec Ideal S128 .f32) (p : Fin 4000) (q : Fin 128) :
    k1_pay1 (F := Ideal) v0 v2 v7 v9 v12 v17 (ix2 p q)
      = Cert.Sage.entry (∑ k : Fin 128, v0 (ix2 p k) * v2 (ix2 p (0 : Fin 1)) * v9 (ix2 k q))
          (∑ k : Fin 128, v7 (ix2 p k) * v12 (ix2 k q)) (v17 (ix1 q)) := by
  unfold k1_pay1 Cert.Sage.entry
  simp only [truncf_apply, maximumf_apply, addf_apply, broadcast_apply, blockDot_apply, mulf_apply,
    shapeCast_self, broadcastTo_a1_ab_apply, broadcastTo_1b_ab_apply, shapeCast_a_1a_apply]
  show max _ (Ideal.ofBits .f32 0x00000000#32) = _
  rw [Ideal.ofBits_zero_f32]

end Cert.KernelIdeal.BodyValue

end
-- ==== Proof.Region0Value.lean ====
/-
  What the first layer's grid leaves in its output array.

  The grid has 25 points; point `t` works on node rows `4000 t … 4000 t + 3999`.  Its three row-blocked
  inputs (neighbour sums, node features, inverse degrees) are those rows of their arrays, and its
  three resident inputs (the two weight matrices and the bias) are their whole arrays.  By the body's
  value, entry `(p, q)` of what point `t` writes back is the layer's entry `(4000 t + p, q)`: the block
  point `t` writes is block `t` of the one whole-array function `Cert.Sage.layer`.  The 25 blocks tile
  the 100000 rows, so the output array ends holding that function of the arrays the region found.
-/
import proofs.«121350_j6502580486349_2_alg».proof.Proof.Gen.KernelIdeal.Frame
import proofs.«121350_j6502580486349_2_alg».proof.Proof.BodyValue

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block row `t`, column block 0;
    the resident windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The neighbour-sum block at point `t` is rows `4000 t + p` of its array. -/
theorem blk_sums (c : Dev nD) (t : Fin cfg0.N) (p : Fin 4000) (k : Fin 128) (n : Fin 100000) (hn : n.val = t.val * 4000 + p.val) :
    (iblk0 V c 0 t : FVec Ideal S4000x128 .f32) (ix2 p k) = (V c main_v24 : S100000x128.Idx → EReal) (ix2 n k) := by
  obtain ⟨e0, e1, -⟩ := idx_facts t
  unfold iblk0
  rw [View.read_apply]
  show V c main_v24 _ = V c main_v24 _
  congr 1
  funext a
  apply Fin.ext
  match a with
  | ⟨0, _⟩ => show win0_0.index t (0 : Fin 2) * 4000 + 1 * p.val = n.val; rw [e0, hn]; omega
  | ⟨1, _⟩ => show win0_0.index t (1 : Fin 2) * 128 + 1 * k.val = k.val; rw [e1]; omega

/-- The node-feature block at point `t` is rows `4000 t + p` of its array. -/
theorem blk_feats (c : Dev nD) (t : Fin cfg0.N) (p : Fin 4000) (k : Fin 128) (n : Fin 100000) (hn : n.val = t.val * 4000 + p.val) :
    (iblk0 V c 1 t : FVec Ideal S4000x128 .f32) (ix2 p k) = (V c main_arg0 : S100000x128.Idx → EReal) (ix2 n k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 4000 + 1 * p.val = n.val; rw [e0, hn]; omega
  | ⟨1, _⟩ => show win0_1.index t (1 : Fin 2) * 128 + 1 * k.val = k.val; rw [e1]; omega

/-- The inverse-degree block at point `t` is rows `4000 t + p` of the column. -/
theorem blk_deg (c : Dev nD) (t : Fin cfg0.N) (p : Fin 4000) (n : Fin 100000) (hn : n.val = t.val * 4000 + p.val) :
    (iblk0 V c 2 t : FVec Ideal S4000x1 .f32) (ix2 p (0 : Fin 1)) = (V c main_v12 : S100000x1.Idx → EReal) (ix2 n (0 : Fin 1)) := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t (0 : Fin 2) * 4000 + 1 * p.val = n.val; rw [e0, hn]; omega
  | ⟨1, _⟩ => show win0_2.index t (1 : Fin 2) * 1 + 1 * (0 : Fin 1).val = (0 : Fin 1).val; rw [e1]; rfl

/-- The left weights' block at every point is the whole matrix. -/
theorem blk_wl (c : Dev nD) (t : Fin cfg0.N) (k q : Fin 128) :
    (iblk0 V c 3 t : FVec Ideal S128x128 .f32) (ix2 k q) = (V c main_v25 : S128x128.Idx → EReal) (ix2 k q) := by
  obtain ⟨-, -, -, -, -, -, e0, e1, -⟩ := idx_facts t
  unfold iblk0
  rw [View.read_apply]
  show V c main_v25 _ = V c main_v25 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The right weights' block at every point is the whole matrix. -/
theorem blk_wr (c : Dev nD) (t : Fin cfg0.N) (k q : Fin 128) :
    (iblk0 V c 4 t : FVec Ideal S128x128 .f32) (ix2 k q) = (V c main_v26 : S128x128.Idx → EReal) (ix2 k q) := by
  obtain ⟨-, -, -, -, -, -, -, -, e0, e1, -⟩ := idx_facts t
  unfold iblk0
  rw [View.read_apply]
  show V c main_v26 _ = V c main_v26 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias block at every point is the whole vector. -/
theorem blk_bias (c : Dev nD) (t : Fin cfg0.N) (q : Fin 128) :
    (iblk0 V c 5 t : FVec Ideal S128 .f32) (ix1 q) = (V c main_arg4 : S128.Idx → EReal) (ix1 q) := by
  obtain ⟨-, -, -, -, -, -, -, -, -, -, e0, -⟩ := idx_facts t
  unfold iblk0
  rw [View.read_apply]
  show V c main_arg4 _ = V c main_arg4 _
  congr 1
  funext a
  apply Fin.ext
  match a with
  | ⟨0, _⟩ => show win0_5.index t (0 : Fin 1) * 128 + 1 * q.val = q.val; rw [e0]; omega

/-- The layer of the arrays as the region finds them. -/
abbrev out (c : Dev nD) : S100000x128.Idx → EReal :=
  Cert.Sage.layer (V c main_v24) (V c main_arg0) (V c main_v12) (V c main_v25) (V c main_v26) (V c main_arg4)

/-- What point `t` writes back is block `t` of the layer. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  have hN : cfg0.N = 25 := N_0
  have ht : t.val < 25 := hN ▸ t.isLt
  obtain ⟨n, hn⟩ : ∃ n : Fin 100000, n.val = t.val * 4000 + p.val := ⟨⟨t.val * 4000 + p.val, by have := p.isLt; omega⟩, rfl⟩
  have hemb : ((cfg0.win 6).blk t).view.emb (ix2 p q) = (ix2 n q : S100000x128.Idx) := by
    obtain ⟨-, -, -, -, -, -, -, -, -, -, -, e0, e1⟩ := idx_facts t
    funext a
    apply Fin.ext
    match a with
    | ⟨0, _⟩ => show win0_6.index t (0 : Fin 2) * 4000 + 1 * p.val = n.val; rw [e0, hn]; omega
    | ⟨1, _⟩ => show win0_6.index t (1 : Fin 2) * 128 + 1 * q.val = q.val; rw [e1]; omega
  show k0_pay1 (iblk0 V c 0 t) (iblk0 V c 2 t) (iblk0 V c 1 t) (iblk0 V c 3 t) (iblk0 V c 4 t) (iblk0 V c 5 t) (ix2 p q)
    = out V c (((cfg0.win 6).blk t).view.emb (ix2 p q))
  rw [hemb]
  refine (Cert.KernelIdeal.BodyValue.pay0_apply (iblk0 V c 0 t) (iblk0 V c 2 t) (iblk0 V c 1 t) (iblk0 V c 3 t)
    (iblk0 V c 4 t) (iblk0 V c 5 t) p q).trans ?_
  show _ = Cert.Sage.entry _ _ _
  refine congr (congr (congrArg Cert.Sage.entry ?_) ?_) ?_
  · refine Finset.sum_congr rfl fun k _ => ?_
    rw [blk_sums V c t p k n hn, blk_deg V c t p n hn, blk_wl V c t k q]
  · refine Finset.sum_congr rfl fun k _ => ?_
    rw [blk_feats V c t p k n hn, blk_wr V c t k q]
  · exact blk_bias V c t q

/-- An index of the output array is in point `t`'s block iff each coordinate is in the block's range. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v27).slice (win0_6.rect t)).set ↔ _
  rw [View.set_slice_whole, Rect.mem_set_unit]
  exact Iff.rfl

/-- Row `r` of the output lies in the block of point `r / 4000`: the 25 blocks tile the array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have hlt : (i 0).val / 4000 < cfg0.N := by rw [hN]; omega
  refine ⟨⟨(i 0).val / 4000, hlt⟩, flush0_6 _, ?_⟩
  rw [mem_blk]
  obtain ⟨-, -, -, -, -, -, -, -, -, -, -, e0, e1⟩ := idx_facts ⟨(i 0).val / 4000, hlt⟩
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    rw [e1]
    omega

/-- The output array after the grid: the layer of the arrays the region found. -/
theorem final (c : Dev nD) : (dat0 V c).arrAt 6 cfg0.N = out V c :=
  (dat0 V c).arrAt_eq_of_cover 6 (out V c) (fun t _ => flushed_eq V c t) (cover)

end Cert.KernelIdeal.Region0

end
-- ==== Proof.Region1Value.lean ====
/-
  What the second layer's grid leaves in its output array.

  The grid has 25 points; point `t` works on node rows `4000 t … 4000 t + 3999`.  Its three row-blocked
  inputs (neighbour sums, node features, inverse degrees) are those rows of their arrays, and its
  three resident inputs (the two weight matrices and the bias) are their whole arrays.  By the body's
  value, entry `(p, q)` of what point `t` writes back is the layer's entry `(4000 t + p, q)`: the block
  point `t` writes is block `t` of the one whole-array function `Cert.Sage.layer`.  The 25 blocks tile
  the 100000 rows, so the output array ends holding that function of the arrays the region found.
-/
import proofs.«121350_j6502580486349_2_alg».proof.Proof.Gen.KernelIdeal.Frame
import proofs.«121350_j6502580486349_2_alg».proof.Proof.BodyValue

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block row `t`, column block 0;
    the resident windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The neighbour-sum block at point `t` is rows `4000 t + p` of its array. -/
theorem blk_sums (c : Dev nD) (t : Fin cfg1.N) (p : Fin 4000) (k : Fin 128) (n : Fin 100000) (hn : n.val = t.val * 4000 + p.val) :
    (iblk1 V c 0 t : FVec Ideal S4000x128 .f32) (ix2 p k) = (V c main_v38 : S100000x128.Idx → EReal) (ix2 n k) := by
  obtain ⟨e0, e1, -⟩ := idx_facts t
  unfold iblk1
  rw [View.read_apply]
  show V c main_v38 _ = V c main_v38 _
  congr 1
  funext a
  apply Fin.ext
  match a with
  | ⟨0, _⟩ => show win1_0.index t (0 : Fin 2) * 4000 + 1 * p.val = n.val; rw [e0, hn]; omega
  | ⟨1, _⟩ => show win1_0.index t (1 : Fin 2) * 128 + 1 * k.val = k.val; rw [e1]; omega

/-- The node-feature block at point `t` is rows `4000 t + p` of its array. -/
theorem blk_feats (c : Dev nD) (t : Fin cfg1.N) (p : Fin 4000) (k : Fin 128) (n : Fin 100000) (hn : n.val = t.val * 4000 + p.val) :
    (iblk1 V c 1 t : FVec Ideal S4000x128 .bf16) (ix2 p k) = (V c main_v27 : S100000x128.Idx → EReal) (ix2 n k) := by
  obtain ⟨-, -, e0, e1, -⟩ := idx_facts t
  unfold iblk1
  rw [View.read_apply]
  show V c main_v27 _ = V c main_v27 _
  congr 1
  funext a
  apply Fin.ext
  match a with
  | ⟨0, _⟩ => show win1_1.index t (0 : Fin 2) * 4000 + 1 * p.val = n.val; rw [e0, hn]; omega
  | ⟨1, _⟩ => show win1_1.index t (1 : Fin 2) * 128 + 1 * k.val = k.val; rw [e1]; omega

/-- The inverse-degree block at point `t` is rows `4000 t + p` of the column. -/
theorem blk_deg (c : Dev nD) (t : Fin cfg1.N) (p : Fin 4000) (n : Fin 100000) (hn : n.val = t.val * 4000 + p.val) :
    (iblk1 V c 2 t : FVec Ideal S4000x1 .f32) (ix2 p (0 : Fin 1)) = (V c main_v12 : S100000x1.Idx → EReal) (ix2 n (0 : Fin 1)) := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t (0 : Fin 2) * 4000 + 1 * p.val = n.val; rw [e0, hn]; omega
  | ⟨1, _⟩ => show win1_2.index t (1 : Fin 2) * 1 + 1 * (0 : Fin 1).val = (0 : Fin 1).val; rw [e1]; rfl

/-- The left weights' block at every point is the whole matrix. -/
theorem blk_wl (c : Dev nD) (t : Fin cfg1.N) (k q : Fin 128) :
    (iblk1 V c 3 t : FVec Ideal S128x128 .f32) (ix2 k q) = (V c main_v39 : S128x128.Idx → EReal) (ix2 k q) := by
  obtain ⟨-, -, -, -, -, -, e0, e1, -⟩ := idx_facts t
  unfold iblk1
  rw [View.read_apply]
  show V c main_v39 _ = V c main_v39 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The right weights' block at every point is the whole matrix. -/
theorem blk_wr (c : Dev nD) (t : Fin cfg1.N) (k q : Fin 128) :
    (iblk1 V c 4 t : FVec Ideal S128x128 .f32) (ix2 k q) = (V c main_v40 : S128x128.Idx → EReal) (ix2 k q) := by
  obtain ⟨-, -, -, -, -, -, -, -, e0, e1, -⟩ := idx_facts t
  unfold iblk1
  rw [View.read_apply]
  show V c main_v40 _ = V c main_v40 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias block at every point is the whole vector. -/
theorem blk_bias (c : Dev nD) (t : Fin cfg1.N) (q : Fin 128) :
    (iblk1 V c 5 t : FVec Ideal S128 .f32) (ix1 q) = (V c main_arg7 : S128.Idx → EReal) (ix1 q) := by
  obtain ⟨-, -, -, -, -, -, -, -, -, -, e0, -⟩ := idx_facts t
  unfold iblk1
  rw [View.read_apply]
  show V c main_arg7 _ = V c main_arg7 _
  congr 1
  funext a
  apply Fin.ext
  match a with
  | ⟨0, _⟩ => show win1_5.index t (0 : Fin 1) * 128 + 1 * q.val = q.val; rw [e0]; omega

/-- The layer of the arrays as the region finds them. -/
abbrev out (c : Dev nD) : S100000x128.Idx → EReal :=
  Cert.Sage.layer (V c main_v38) (V c main_v27) (V c main_v12) (V c main_v39) (V c main_v40) (V c main_arg7)

/-- What point `t` writes back is block `t` of the layer. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  have hN : cfg1.N = 25 := N_1
  have ht : t.val < 25 := hN ▸ t.isLt
  obtain ⟨n, hn⟩ : ∃ n : Fin 100000, n.val = t.val * 4000 + p.val := ⟨⟨t.val * 4000 + p.val, by have := p.isLt; omega⟩, rfl⟩
  have hemb : ((cfg1.win 6).blk t).view.emb (ix2 p q) = (ix2 n q : S100000x128.Idx) := by
    obtain ⟨-, -, -, -, -, -, -, -, -, -, -, e0, e1⟩ := idx_facts t
    funext a
    apply Fin.ext
    match a with
    | ⟨0, _⟩ => show win1_6.index t (0 : Fin 2) * 4000 + 1 * p.val = n.val; rw [e0, hn]; omega
    | ⟨1, _⟩ => show win1_6.index t (1 : Fin 2) * 128 + 1 * q.val = q.val; rw [e1]; omega
  show k1_pay1 (iblk1 V c 0 t) (iblk1 V c 2 t) (iblk1 V c 1 t) (iblk1 V c 3 t) (iblk1 V c 4 t) (iblk1 V c 5 t) (ix2 p q)
    = out V c (((cfg1.win 6).blk t).view.emb (ix2 p q))
  rw [hemb]
  refine (Cert.KernelIdeal.BodyValue.pay1_apply (iblk1 V c 0 t) (iblk1 V c 2 t) (iblk1 V c 1 t) (iblk1 V c 3 t)
    (iblk1 V c 4 t) (iblk1 V c 5 t) p q).trans ?_
  show _ = Cert.Sage.entry _ _ _
  refine congr (congr (congrArg Cert.Sage.entry ?_) ?_) ?_
  · refine Finset.sum_congr rfl fun k _ => ?_
    rw [blk_sums V c t p k n hn, blk_deg V c t p n hn, blk_wl V c t k q]
  · refine Finset.sum_congr rfl fun k _ => ?_
    rw [blk_feats V c t p k n hn, blk_wr V c t k q]
  · exact blk_bias V c t q

/-- An index of the output array is in point `t`'s block iff each coordinate is in the block's range. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v41).slice (win1_6.rect t)).set ↔ _
  rw [View.set_slice_whole, Rect.mem_set_unit]
  exact Iff.rfl

/-- Row `r` of the output lies in the block of point `r / 4000`: the 25 blocks tile the array. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  have hlt : (i 0).val / 4000 < cfg1.N := by rw [hN]; omega
  refine ⟨⟨(i 0).val / 4000, hlt⟩, flush1_6 _, ?_⟩
  rw [mem_blk]
  obtain ⟨-, -, -, -, -, -, -, -, -, -, -, e0, e1⟩ := idx_facts ⟨(i 0).val / 4000, hlt⟩
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win1_6.index ⟨(i 0).val / 4000, hlt⟩ (1 : Fin 2) * 128 ≤ (i 1).val
      ∧ (i 1).val < win1_6.index ⟨(i 0).val / 4000, hlt⟩ (1 : Fin 2) * 128 + 128
    rw [e1]
    omega

/-- The output array after the grid: the layer of the arrays the region found. -/
theorem final (c : Dev nD) : (dat1 V c).arrAt 6 cfg1.N = out V c :=
  (dat1 V c).arrAt_eq_of_cover 6 (out V c) (fun t _ => flushed_eq V c t) (cover)

end Cert.KernelIdeal.Region1

end
-- ==== Proof.HostParts.lean ====
/-
  The host-side pieces of the network, as functions on extended reals and integer index arrays.

  `srcCol` / `dstCol`: the two rows of the edge list as index columns (a negative source index is
  wrapped by the node count, as the array indexing of the source program does).
  `degInv`: the inverse in-degree of every node as a column — one over the larger of 1 and the number
  of edges arriving at the node.
  `agg`: the neighbour sum — for every edge, the source node's row of `h` is added into the target
  node's row.
  `tr`: a weight matrix transposed, contraction axis first.
  `tail`: the mean of the node rows of each graph (rows summed per graph, divided by the larger of 1
  and the graph's node count), times the transposed classifier weights, plus the classifier bias.

  None of these is opened by the proof: both programs apply them to equal arguments.
-/
import proofs.«121350_j6502580486349_2_alg».proof.Proof.Gen.KernelIdeal
import Idealize.ShloMosaic.PureOps.Ideal

noncomputable section

namespace Cert.KernelIdeal.HostParts

open Cert.KernelIdeal Cert.KernelIdeal.Facts₀ Idealize.ShloMosaic

/-- Row 0 of the edge list: the source node of every edge. -/
def srcRaw (e : IVec S2x1600000 32) : IVec S1600000 32 :=
  shapeCast _ (extractStridedSlice S1x1600000 ![0, 0] e slices_S2x1600000_S1x1600000_0_0) shapeCasts_S1x1600000_S1600000

/-- Row 1 of the edge list: the target node of every edge. -/
def dstRaw (e : IVec S2x1600000 32) : IVec S1600000 32 :=
  shapeCast _ (extractStridedSlice S1x1600000 ![1, 0] e slices_S2x1600000_S1x1600000_1_0) shapeCasts_S1x1600000_S1600000

/-- The source nodes as an index column, a negative index wrapped by the node count. -/
def srcCol (e : IVec S2x1600000 32) : IVec S1600000x1 32 :=
  broadcastInDim S1600000x1 ![0] bcast_S1600000_S1600000x1_0
    (select (cmpi .slt (srcRaw e) (broadcastInDim S1600000 ![] bcast_S_S1600000 (constantI S_ 32 0#32)))
      (addi (srcRaw e) (broadcastInDim S1600000 ![] bcast_S_S1600000 (constantI S_ 32 100000#32))) (srcRaw e))

/-- The target nodes as an index column. -/
def dstCol (e : IVec S2x1600000 32) : IVec S1600000x1 32 :=
  broadcastInDim S1600000x1 ![0] bcast_S1600000_S1600000x1_0 (dstRaw e)

/-- One over the larger of 1 and each node's in-degree, as a column. -/
def degInv (e : IVec S2x1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32)) (dstCol e)
          (broadcastInDim S1600000 ![] bcast_S_S1600000 (constant (F := Ideal) S_ .f32 0x3F800000#32)))
        (broadcastInDim S100000 ![] bcast_S_S100000 (constant (F := Ideal) S_ .f32 0x3F800000#32))))

/-- The neighbour sum: every edge adds its source node's row of `h` into its target node's row. -/
def agg (e : IVec S2x1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 h (srcCol e))

/-- A square weight matrix transposed. -/
def tr (w : FVec Ideal S128x128 .f32) : FVec Ideal S128x128 .f32 :=
  transpose S128x128 [1, 0] w transposes_S128x128_S128x128_1_0

/-- Per-graph mean of the node rows, then the classifier. -/
def tail (h : FVec Ideal S100000x128 .f32) (batch : IVec S100000 32) (wlin : FVec Ideal S4x128 .f32) (blin : FVec Ideal S4 .f32) :
    FVec Ideal S512x4 .f32 :=
  addf
    (Host.dotGeneral (F := Ideal) dot_S512x128_S128x4_S512x4_1_0_0_1_n_n none
      (Host.divf (F := Ideal)
        (Host.scatterAdd (F := Ideal) scatter_S512x128_S100000x1_S100000x128_1_0_0_1
          (broadcastInDim S512x128 ![] bcast_S_S512x128 (constant (F := Ideal) S_ .f32 0x00000000#32))
          (broadcastInDim S100000x1 ![0] bcast_S100000_S100000x1_0 batch) h)
        (broadcastInDim S512x128 ![0, 1] bcast_S512x1_S512x128_0_1
          (broadcastInDim S512x1 ![0] bcast_S512_S512x1_0
            (maximumf
              (Host.scatterAdd (F := Ideal) scatter_S512_S100000x1_S100000_n_0_0_1
                (broadcastInDim S512 ![] bcast_S_S512 (constant (F := Ideal) S_ .f32 0x00000000#32))
                (broadcastInDim S100000x1 ![0] bcast_S100000_S100000x1_0 batch)
                (broadcastInDim S100000 ![] bcast_S_S100000 (constant (F := Ideal) S_ .f32 0x3F800000#32)))
              (broadcastInDim S512 ![] bcast_S_S512 (constant (F := Ideal) S_ .f32 0x3F800000#32))))))
      (transpose S128x4 [1, 0] wlin transposes_S4x128_S128x4_1_0))
    (broadcastInDim S512x4 ![0, 1] bcast_S1x4_S512x4_0_1 (broadcastInDim S1x4 ![1] bcast_S4_S1x4_1 blin))

end Cert.KernelIdeal.HostParts

end
-- ==== Proof.KernelWalk.lean ====
/-
  The kernel program's result as a function of its arguments.

  The boundary contents are a fold through the five segments.  Read backwards from the result buffer:
  the last host stretch applies the pooling tail to the second grid's output array and three
  arguments; the second grid's output is the layer of the arrays it found — the neighbour sum of the
  first grid's output, that output itself, the inverse degrees, the second layer's transposed weights
  and bias —; the first grid's output is the layer of the neighbour sum of the node features, the node
  features, the inverse degrees, the first layer's transposed weights and bias.  A buffer no segment
  writes keeps its launch contents, and a grid leaves its input arrays as it found them.  Changes of
  float format are the identity on extended reals.
-/
import proofs.«121350_j6502580486349_2_alg».proof.Proof.Gen.KernelIdeal.Frame
import proofs.«121350_j6502580486349_2_alg».proof.Proof.Region0Value
import proofs.«121350_j6502580486349_2_alg».proof.Proof.Region1Value
import proofs.«121350_j6502580486349_2_alg».proof.Proof.HostParts

set_option maxRecDepth 16384

noncomputable section

namespace Cert.KernelIdeal.Walk

open Cert.KernelIdeal Cert.KernelIdeal.Gen Cert.KernelIdeal.HostParts
open Idealize.ShloMosaic Idealize.ShloMosaic.TcCoe Idealize.SL.Sem Idealize.ShloMosaic.StableHlo
open Idealize.ShloMosaic.Pipeline (Dat)

/-- Read one buffer after a literal stretch of host operations: each operation's result at its own buffer is
    its function's value, at any other buffer what was there. -/
local macro "read_host" : tactic => `(tactic| (after_results_simp <;> rfl))

variable (m : (ℓ : Loc nD τ sig) → Buf (Elt Ideal) ℓ) (ρ : Dev nD → PrngReg)

/-! ## After the first host stretch (the first grid's entry) -/

theorem w1_src (c : Dev nD) : W1 m ρ c (Proc.devRef .tc main_v1) = srcRaw (m ((c : Thread nD τ).loc main_arg1)) := by
  show StableHlo.after hostOps0 (W0 m ρ c) (Proc.devRef .tc main_v1) = _
  read_host

theorem w1_dst (c : Dev nD) : W1 m ρ c (Proc.devRef .tc main_v3) = dstRaw (m ((c : Thread nD τ).loc main_arg1)) := by
  show StableHlo.after hostOps0 (W0 m ρ c) (Proc.devRef .tc main_v3) = _
  read_host

theorem w1_deg (c : Dev nD) : W1 m ρ c (Proc.devRef .tc main_v12) = degInv (m ((c : Thread nD τ).loc main_arg1)) := by
  show StableHlo.after hostOps0 (W0 m ρ c) (Proc.devRef .tc main_v12) = _
  read_host

set_option maxHeartbeats 1000000 in
theorem w1_agg (c : Dev nD) : W1 m ρ c (Proc.devRef .tc main_v24) = agg (m ((c : Thread nD τ).loc main_arg1)) (m ((c : Thread nD τ).loc main_arg0)) := by
  show StableHlo.after hostOps0 (W0 m ρ c) (Proc.devRef .tc main_v24) = _
  read_host

theorem w1_wl (c : Dev nD) : W1 m ρ c (Proc.devRef .tc main_v25) = tr (m ((c : Thread nD τ).loc main_arg3)) := by
  show StableHlo.after hostOps0 (W0 m ρ c) (Proc.devRef .tc main_v25) = _
  read_host

theorem w1_wr (c : Dev nD) : W1 m ρ c (Proc.devRef .tc main_v26) = tr (m ((c : Thread nD τ).loc main_arg5)) := by
  show StableHlo.after hostOps0 (W0 m ρ c) (Proc.devRef .tc main_v26) = _
  read_host

theorem w1_arg0 (c : Dev nD) : W1 m ρ c (Proc.devRef .tc main_arg0) = m ((c : Thread nD τ).loc main_arg0) := by
  show StableHlo.after hostOps0 (W0 m ρ c) (Proc.devRef .tc main_arg0) = _
  read_host

theorem w1_arg2 (c : Dev nD) : W1 m ρ c (Proc.devRef .tc main_arg2) = m ((c : Thread nD τ).loc main_arg2) := by
  show StableHlo.after hostOps0 (W0 m ρ c) (Proc.devRef .tc main_arg2) = _
  read_host

theorem w1_arg4 (c : Dev nD) : W1 m ρ c (Proc.devRef .tc main_arg4) = m ((c : Thread nD τ).loc main_arg4) := by
  show StableHlo.after hostOps0 (W0 m ρ c) (Proc.devRef .tc main_arg4) = _
  read_host

theorem w1_arg6 (c : Dev nD) : W1 m ρ c (Proc.devRef .tc main_arg6) = m ((c : Thread nD τ).loc main_arg6) := by
  show StableHlo.after hostOps0 (W0 m ρ c) (Proc.devRef .tc main_arg6) = _
  read_host

theorem w1_arg7 (c : Dev nD) : W1 m ρ c (Proc.devRef .tc main_arg7) = m ((c : Thread nD τ).loc main_arg7) := by
  show StableHlo.after hostOps0 (W0 m ρ c) (Proc.devRef .tc main_arg7) = _
  read_host

theorem w1_arg8 (c : Dev nD) : W1 m ρ c (Proc.devRef .tc main_arg8) = m ((c : Thread nD τ).loc main_arg8) := by
  show StableHlo.after hostOps0 (W0 m ρ c) (Proc.devRef .tc main_arg8) = _
  read_host

theorem w1_arg9 (c : Dev nD) : W1 m ρ c (Proc.devRef .tc main_arg9) = m ((c : Thread nD τ).loc main_arg9) := by
  show StableHlo.after hostOps0 (W0 m ρ c) (Proc.devRef .tc main_arg9) = _
  read_host

theorem w1_arg10 (c : Dev nD) : W1 m ρ c (Proc.devRef .tc main_arg10) = m ((c : Thread nD τ).loc main_arg10) := by
  show StableHlo.after hostOps0 (W0 m ρ c) (Proc.devRef .tc main_arg10) = _
  read_host

/-! ## The first grid's output -/

/-- The hidden features after the first layer. -/
def h1 (c : Dev nD) : FVec Ideal S100000x128 .f32 :=
  Cert.Sage.layer (agg (m ((c : Thread nD τ).loc main_arg1)) (m ((c : Thread nD τ).loc main_arg0))) (m ((c : Thread nD τ).loc main_arg0)) (degInv (m ((c : Thread nD τ).loc main_arg1)))
    (tr (m ((c : Thread nD τ).loc main_arg3))) (tr (m ((c : Thread nD τ).loc main_arg5))) (m ((c : Thread nD τ).loc main_arg4))

theorem w2_h1 (c : Dev nD) : W2 m ρ c (Proc.devRef .tc main_v27) = h1 m c :=
  (W2_arr m ρ c 6).trans ((Region0.final (V1 m ρ) c).trans (by
    show Cert.Sage.layer (W1 m ρ c (Proc.devRef .tc main_v24)) (W1 m ρ c (Proc.devRef .tc main_arg0)) (W1 m ρ c (Proc.devRef .tc main_v12))
      (W1 m ρ c (Proc.devRef .tc main_v25)) (W1 m ρ c (Proc.devRef .tc main_v26)) (W1 m ρ c (Proc.devRef .tc main_arg4)) = _
    rw [w1_agg, w1_arg0, w1_deg, w1_wl, w1_wr, w1_arg4]
    rfl))

/-! ## At the first grid's exit: what it did not write is as it entered -/

theorem w2_src (c : Dev nD) : W2 m ρ c (Proc.devRef .tc main_v1) = srcRaw (m ((c : Thread nD τ).loc main_arg1)) :=
  (W2_of_ne m ρ c main_v1 (by decide)).trans (w1_src m ρ c)
theorem w2_dst (c : Dev nD) : W2 m ρ c (Proc.devRef .tc main_v3) = dstRaw (m ((c : Thread nD τ).loc main_arg1)) :=
  (W2_of_ne m ρ c main_v3 (by decide)).trans (w1_dst m ρ c)
theorem w2_deg (c : Dev nD) : W2 m ρ c (Proc.devRef .tc main_v12) = degInv (m ((c : Thread nD τ).loc main_arg1)) :=
  (W2_arr m ρ c 2).trans ((((dat0 (V1 m ρ) c).arrAt_in 2 rfl _).trans (A_eq0 (V1 m ρ) c 2)).trans (w1_deg m ρ c))
theorem w2_arg2 (c : Dev nD) : W2 m ρ c (Proc.devRef .tc main_arg2) = m ((c : Thread nD τ).loc main_arg2) :=
  (W2_of_ne m ρ c main_arg2 (by decide)).trans (w1_arg2 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg9 (c : Dev nD) : W2 m ρ c (Proc.devRef .tc main_arg9) = m ((c : Thread nD τ).loc main_arg9) :=
  (W2_of_ne m ρ c main_arg9 (by decide)).trans (w1_arg9 m ρ c)
theorem w2_arg10 (c : Dev nD) : W2 m ρ c (Proc.devRef .tc main_arg10) = m ((c : Thread nD τ).loc main_arg10) :=
  (W2_of_ne m ρ c main_arg10 (by decide)).trans (w1_arg10 m ρ c)

/-! ## After the second host stretch (the second grid's entry) -/

theorem w3_agg (c : Dev nD) : W3 m ρ c (Proc.devRef .tc main_v38) = agg (m ((c : Thread nD τ).loc main_arg1)) (h1 m c) := by
  show StableHlo.after hostOps1 (W2 m ρ c) (Proc.devRef .tc main_v38) = _
  after_results_simp
  rw [w2_src, w2_dst, w2_h1]
  rfl
theorem w3_h1 (c : Dev nD) : W3 m ρ c (Proc.devRef .tc main_v27) = h1 m c := by
  show StableHlo.after hostOps1 (W2 m ρ c) (Proc.devRef .tc main_v27) = _
  after_results_simp
  exact w2_h1 m ρ c
theorem w3_deg (c : Dev nD) : W3 m ρ c (Proc.devRef .tc main_v12) = degInv (m ((c : Thread nD τ).loc main_arg1)) := by
  show StableHlo.after hostOps1 (W2 m ρ c) (Proc.devRef .tc main_v12) = _
  after_results_simp
  exact w2_deg m ρ c
theorem w3_wl (c : Dev nD) : W3 m ρ c (Proc.devRef .tc main_v39) = tr (m ((c : Thread nD τ).loc main_arg6)) := by
  show StableHlo.after hostOps1 (W2 m ρ c) (Proc.devRef .tc main_v39) = _
  after_results_simp
  rw [w2_arg6]
  rfl
theorem w3_wr (c : Dev nD) : W3 m ρ c (Proc.devRef .tc main_v40) = tr (m ((c : Thread nD τ).loc main_arg8)) := by
  show StableHlo.after hostOps1 (W2 m ρ c) (Proc.devRef .tc main_v40) = _
  after_results_simp
  rw [w2_arg8]
  rfl
theorem w3_arg2 (c : Dev nD) : W3 m ρ c (Proc.devRef .tc main_arg2) = m ((c : Thread nD τ).loc main_arg2) := by
  show StableHlo.after hostOps1 (W2 m ρ c) (Proc.devRef .tc main_arg2) = _
  after_results_simp
  exact w2_arg2 m ρ c
theorem w3_arg7 (c : Dev nD) : W3 m ρ c (Proc.devRef .tc main_arg7) = m ((c : Thread nD τ).loc main_arg7) := by
  show StableHlo.after hostOps1 (W2 m ρ c) (Proc.devRef .tc main_arg7) = _
  after_results_simp
  exact w2_arg7 m ρ c
theorem w3_arg9 (c : Dev nD) : W3 m ρ c (Proc.devRef .tc main_arg9) = m ((c : Thread nD τ).loc main_arg9) := by
  show StableHlo.after hostOps1 (W2 m ρ c) (Proc.devRef .tc main_arg9) = _
  after_results_simp
  exact w2_arg9 m ρ c
theorem w3_arg10 (c : Dev nD) : W3 m ρ c (Proc.devRef .tc main_arg10) = m ((c : Thread nD τ).loc main_arg10) := by
  show StableHlo.after hostOps1 (W2 m ρ c) (Proc.devRef .tc main_arg10) = _
  after_results_simp
  exact w2_arg10 m ρ c

/-! ## The second grid's output -/

/-- The hidden features after the second layer. -/
def h2 (c : Dev nD) : FVec Ideal S100000x128 .f32 :=
  Cert.Sage.layer (agg (m ((c : Thread nD τ).loc main_arg1)) (h1 m c)) (h1 m c) (degInv (m ((c : Thread nD τ).loc main_arg1)))
    (tr (m ((c : Thread nD τ).loc main_arg6))) (tr (m ((c : Thread nD τ).loc main_arg8))) (m ((c : Thread nD τ).loc main_arg7))

theorem w4_h2 (c : Dev nD) : W4 m ρ c (Proc.devRef .tc main_v41) = h2 m c :=
  (W4_arr m ρ c 6).trans ((Region1.final (V3 m ρ) c).trans (by
    show Cert.Sage.layer (W3 m ρ c (Proc.devRef .tc main_v38)) (W3 m ρ c (Proc.devRef .tc main_v27)) (W3 m ρ c (Proc.devRef .tc main_v12))
      (W3 m ρ c (Proc.devRef .tc main_v39)) (W3 m ρ c (Proc.devRef .tc main_v40)) (W3 m ρ c (Proc.devRef .tc main_arg7)) = _
    rw [w3_agg, w3_h1, w3_deg, w3_wl, w3_wr, w3_arg7]
    rfl))

theorem w4_arg2 (c : Dev nD) : W4 m ρ c (Proc.devRef .tc main_arg2) = m ((c : Thread nD τ).loc main_arg2) :=
  (W4_of_ne m ρ c main_arg2 (by decide)).trans (w3_arg2 m ρ c)
theorem w4_arg9 (c : Dev nD) : W4 m ρ c (Proc.devRef .tc main_arg9) = m ((c : Thread nD τ).loc main_arg9) :=
  (W4_of_ne m ρ c main_arg9 (by decide)).trans (w3_arg9 m ρ c)
theorem w4_arg10 (c : Dev nD) : W4 m ρ c (Proc.devRef .tc main_arg10) = m ((c : Thread nD τ).loc main_arg10) :=
  (W4_of_ne m ρ c main_arg10 (by decide)).trans (w3_arg10 m ρ c)

/-! ## The result -/

/-- The program's result: the pooling tail of the second layer's features. -/
def result (c : Dev nD) : FVec Ideal S512x4 .f32 :=
  tail (h2 m c) (m ((c : Thread nD τ).loc main_arg2)) (m ((c : Thread nD τ).loc main_arg9)) (m ((c : Thread nD τ).loc main_arg10))

theorem w5_result (c : Dev nD) : W5 m ρ c (Proc.devRef .tc main_v58) = result m c := by
  show StableHlo.after hostOps2 (W4 m ρ c) (Proc.devRef .tc main_v58) = _
  after_results_simp
  rw [w4_h2, w4_arg2, w4_arg9, w4_arg10]
  rfl

end Cert.KernelIdeal.Walk

end
-- ==== Proof.RefParts.lean ====
/-
  The host-side pieces of the network as the reference program spells them, as functions on extended
  reals and integer index arrays.

  `srcCol` / `dstCol`: the two rows of the edge list as index columns (a negative source index is
  wrapped by the node count, as the array indexing of the source program does).
  `degInv`: the inverse in-degree of every node as a column — one over the larger of 1 and the number
  of edges arriving at the node.
  `agg`: the neighbour sum — for every edge, the source node's row of `h` is added into the target
  node's row.
  `tr`: a weight matrix transposed, contraction axis first.
  `tail`: the mean of the node rows of each graph (rows summed per graph, divided by the larger of 1
  and the graph's node count), times the transposed classifier weights, plus the classifier bias.

  None of these is opened by the proof: both programs apply them to equal arguments, and each is the
  kernel program's piece of the same name.
-/
import proofs.«121350_j6502580486349_2_alg».proof.Proof.Gen.ReferenceIdeal
import Idealize.ShloMosaic.PureOps.Ideal

noncomputable section

namespace Cert.ReferenceIdeal.RefParts

open Cert.ReferenceIdeal Cert.ReferenceIdeal.Facts₀ Idealize.ShloMosaic

/-- Row 0 of the edge list: the source node of every edge. -/
def srcRaw (e : IVec S2x1600000 32) : IVec S1600000 32 :=
  shapeCast _ (extractStridedSlice S1x1600000 ![0, 0] e slices_S2x1600000_S1x1600000_0_0) shapeCasts_S1x1600000_S1600000

/-- Row 1 of the edge list: the target node of every edge. -/
def dstRaw (e : IVec S2x1600000 32) : IVec S1600000 32 :=
  shapeCast _ (extractStridedSlice S1x1600000 ![1, 0] e slices_S2x1600000_S1x1600000_1_0) shapeCasts_S1x1600000_S1600000

/-- The source nodes as an index column, a negative index wrapped by the node count. -/
def srcCol (e : IVec S2x1600000 32) : IVec S1600000x1 32 :=
  broadcastInDim S1600000x1 ![0] bcast_S1600000_S1600000x1_0
    (select (cmpi .slt (srcRaw e) (broadcastInDim S1600000 ![] bcast_S_S1600000 (constantI S_ 32 0#32)))
      (addi (srcRaw e) (broadcastInDim S1600000 ![] bcast_S_S1600000 (constantI S_ 32 100000#32))) (srcRaw e))

/-- The target nodes as an index column. -/
def dstCol (e : IVec S2x1600000 32) : IVec S1600000x1 32 :=
  broadcastInDim S1600000x1 ![0] bcast_S1600000_S1600000x1_0 (dstRaw e)

/-- One over the larger of 1 and each node's in-degree, as a column. -/
def degInv (e : IVec S2x1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32)) (dstCol e)
          (broadcastInDim S1600000 ![] bcast_S_S1600000 (constant (F := Ideal) S_ .f32 0x3F800000#32)))
        (broadcastInDim S100000 ![] bcast_S_S100000 (constant (F := Ideal) S_ .f32 0x3F800000#32))))

/-- The neighbour sum: every edge adds its source node's row of `h` into its target node's row. -/
def agg (e : IVec S2x1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 h (srcCol e))

/-- A square weight matrix transposed. -/
def tr (w : FVec Ideal S128x128 .f32) : FVec Ideal S128x128 .f32 :=
  transpose S128x128 [1, 0] w transposes_S128x128_S128x128_1_0

/-- Per-graph mean of the node rows, then the classifier. -/
def tail (h : FVec Ideal S100000x128 .f32) (batch : IVec S100000 32) (wlin : FVec Ideal S4x128 .f32) (blin : FVec Ideal S4 .f32) :
    FVec Ideal S512x4 .f32 :=
  addf
    (Host.dotGeneral (F := Ideal) dot_S512x128_S128x4_S512x4_1_0_0_1_n_n none
      (Host.divf (F := Ideal)
        (Host.scatterAdd (F := Ideal) scatter_S512x128_S100000x1_S100000x128_1_0_0_1
          (broadcastInDim S512x128 ![] bcast_S_S512x128 (constant (F := Ideal) S_ .f32 0x00000000#32))
          (broadcastInDim S100000x1 ![0] bcast_S100000_S100000x1_0 batch) h)
        (broadcastInDim S512x128 ![0, 1] bcast_S512x1_S512x128_0_1
          (broadcastInDim S512x1 ![0] bcast_S512_S512x1_0
            (maximumf
              (Host.scatterAdd (F := Ideal) scatter_S512_S100000x1_S100000_n_0_0_1
                (broadcastInDim S512 ![] bcast_S_S512 (constant (F := Ideal) S_ .f32 0x00000000#32))
                (broadcastInDim S100000x1 ![0] bcast_S100000_S100000x1_0 batch)
                (broadcastInDim S100000 ![] bcast_S_S100000 (constant (F := Ideal) S_ .f32 0x3F800000#32)))
              (broadcastInDim S512 ![] bcast_S_S512 (constant (F := Ideal) S_ .f32 0x3F800000#32))))))
      (transpose S128x4 [1, 0] wlin transposes_S4x128_S128x4_1_0))
    (broadcastInDim S512x4 ![0, 1] bcast_S1x4_S512x4_0_1 (broadcastInDim S1x4 ![1] bcast_S4_S1x4_1 blin))

end Cert.ReferenceIdeal.RefParts

end
-- ==== Proof.RefLayer.lean ====
/-
  The reference's dense layer, entry by entry.

  On the host the layer is: the neighbour sums times the inverse-degree column broadcast along the
  feature axis; a matrix product with the transposed left weights; plus the bias broadcast along the
  node axis; plus the matrix product of the node features with the transposed right weights; clamped
  below at zero.  Each matrix product at `(n, j)` is the sum over the 128 shared features.  The three
  terms arrive in the order (left + bias) + right; `Cert.Sage.entry_bias_first` reorders them.
-/
import proofs.«121350_j6502580486349_2_alg».proof.Proof.Gen.ReferenceIdeal
import proofs.«121350_j6502580486349_2_alg».proof.Proof.LayerSpec
import proofs.«121350_j6502580486349_2_alg».proof.Proof.LibColumnBroadcast
import Idealize.ShloMosaic.Lib.ValueIdx
import Idealize.ShloMosaic.Lib.Pipeline.Value
import Idealize.ShloMosaic.PureOps.Ideal.Laws

noncomputable section

namespace Cert.ReferenceIdeal.RefLayer

open Cert.ReferenceIdeal Cert.ReferenceIdeal.Facts₀ Idealize.ShloMosaic Idealize.ShloMosaic.ValueIdx Cert.LibColumnBroadcast

/-- The left operand's index of the whole product at output `(n, j)` and contraction index `k` is `(n, k)`. -/
theorem wholeDot_lhs (n : Fin 100000) (j : Fin 128) (k : Fin 128) :
    dot_S100000x128_S128x128_S100000x128_1_0_0_1_n_n.lhsIdx (ix2 n j) ((contrEquiv1 dot_S100000x128_S128x128_S100000x128_1_0_0_1_n_n 128 rfl rfl).symm k) = ix2 n k := by
  have hk := contrEquiv1_symm_val dot_S100000x128_S128x128_S100000x128_1_0_0_1_n_n 128 rfl rfl k
  funext a
  apply Fin.ext
  match a with
  | ⟨0, _⟩ =>
    show (dot_S100000x128_S128x128_S100000x128_1_0_0_1_n_n.lhsIdx (ix2 n j) _ 0).val = n.val
    unfold DotDims.lhsIdx
    rw [dif_neg (show ¬(0 : Fin S100000x128.rank) ∈ dot_S100000x128_S128x128_S100000x128_1_0_0_1_n_n.lhsBatch by decide),
      dif_pos (show (0 : Fin S100000x128.rank) ∈ dot_S100000x128_S128x128_S100000x128_1_0_0_1_n_n.lhsNonContracting by decide)]
    rfl
  | ⟨1, _⟩ => exact (dot_S100000x128_S128x128_S100000x128_1_0_0_1_n_n.lhsIdx_val_of_single rfl _ _).trans hk

/-- The right operand's index of the whole product at output `(n, j)` and contraction index `k` is `(k, j)`. -/
theorem wholeDot_rhs (n : Fin 100000) (j : Fin 128) (k : Fin 128) :
    dot_S100000x128_S128x128_S100000x128_1_0_0_1_n_n.rhsIdx (ix2 n j) ((contrEquiv1 dot_S100000x128_S128x128_S100000x128_1_0_0_1_n_n 128 rfl rfl).symm k) = ix2 k j := by
  have hk := contrEquiv1_symm_val dot_S100000x128_S128x128_S100000x128_1_0_0_1_n_n 128 rfl rfl k
  funext a
  apply Fin.ext
  match a with
  | ⟨0, _⟩ => exact (dot_S100000x128_S128x128_S100000x128_1_0_0_1_n_n.rhsIdx_val_of_single rfl _ _).trans hk
  | ⟨1, _⟩ =>
    show (dot_S100000x128_S128x128_S100000x128_1_0_0_1_n_n.rhsIdx (ix2 n j) _ 1).val = j.val
    unfold DotDims.rhsIdx
    rw [dif_neg (show ¬(1 : Fin S128x128.rank) ∈ dot_S100000x128_S128x128_S100000x128_1_0_0_1_n_n.rhsBatch by decide),
      dif_pos (show (1 : Fin S128x128.rank) ∈ dot_S100000x128_S128x128_S100000x128_1_0_0_1_n_n.rhsNonContracting by decide)]
    rfl

/-- The host's matrix product over all nodes, at entry `(n, j)`: the sum over the 128 shared features. -/
theorem wholeDot_apply {φ₁ φ₂ : FTy} (l : FVec Ideal S100000x128 φ₁) (r : FVec Ideal S128x128 φ₂) (n : Fin 100000) (j : Fin 128) :
    Host.dotGeneral (F := Ideal) dot_S100000x128_S128x128_S100000x128_1_0_0_1_n_n none l r (ix2 n j) = ∑ k : Fin 128, l (ix2 n k) * r (ix2 k j) := by
  refine (Ideal.dotGeneral_apply dot_S100000x128_S128x128_S100000x128_1_0_0_1_n_n none .single l r (ix2 n j)).trans ?_
  rw [← Equiv.sum_comp (contrEquiv1 dot_S100000x128_S128x128_S100000x128_1_0_0_1_n_n 128 rfl rfl).symm]
  refine Finset.sum_congr rfl fun k _ => ?_
  rw [wholeDot_lhs, wholeDot_rhs]

/-- The reference's layer as one function of its operand arrays (the weights already transposed). -/
def refLayer (a x : FVec Ideal S100000x128 .f32) (d : FVec Ideal S100000x1 .f32) (wl wr : FVec Ideal S128x128 .f32)
    (b : FVec Ideal S128 .f32) : FVec Ideal S100000x128 .f32 :=
  maximumf
    (addf
      (addf
        (Host.dotGeneral (F := Ideal) dot_S100000x128_S128x128_S100000x128_1_0_0_1_n_n none
          (mulf a (broadcastInDim S100000x128 ![0, 1] bcast_S100000x1_S100000x128_0_1 d)) wl)
        (broadcastInDim S100000x128 ![0, 1] bcast_S1x128_S100000x128_0_1 (broadcastInDim S1x128 ![1] bcast_S128_S1x128_1 b)))
      (Host.dotGeneral (F := Ideal) dot_S100000x128_S128x128_S100000x128_1_0_0_1_n_n none x wr))
    (broadcastInDim S100000x128 ![] bcast_S_S100000x128 (constant (F := Ideal) S_ .f32 0x00000000#32))

/-- The reference's layer is the layer of the specification. -/
theorem refLayer_eq (a x : FVec Ideal S100000x128 .f32) (d : FVec Ideal S100000x1 .f32) (wl wr : FVec Ideal S128x128 .f32)
    (b : FVec Ideal S128 .f32) : refLayer a x d wl wr b = Cert.Sage.layer a x d wl wr b := by
  funext i
  obtain ⟨n, j, rfl⟩ : ∃ (n : Fin 100000) (j : Fin 128), i = ix2 n j := ⟨i 0, i 1, eq_ix2 i⟩
  rw [Cert.Sage.layer_apply, ← Cert.Sage.entry_bias_first]
  have hd : ∀ k : Fin 128, broadcastInDim S100000x128 ![0, 1] bcast_S100000x1_S100000x128_0_1 d (ix2 n k) = d (ix2 n (0 : Fin 1)) :=
    fun k => broadcastInDim_a1_ab_apply d bcast_S100000x1_S100000x128_0_1 n k
  have hb : broadcastInDim S100000x128 ![0, 1] bcast_S1x128_S100000x128_0_1 (broadcastInDim S1x128 ![1] bcast_S128_S1x128_1 b) (ix2 n j)
      = b (ix1 j) :=
    (broadcastInDim_1b_ab_apply (broadcastInDim S1x128 ![1] bcast_S128_S1x128_1 b) bcast_S1x128_S100000x128_0_1 n j).trans
      (broadcastInDim_b_1b_apply b bcast_S128_S1x128_1 (0 : Fin 1) j)
  unfold refLayer
  simp only [maximumf_apply, addf_apply, wholeDot_apply, mulf_apply, broadcastInDim_scalar_apply, constant_apply, hd, hb]
  rw [Ideal.ofBits_zero_f32]

end Cert.ReferenceIdeal.RefLayer

end
-- ==== Proof.RefValue.lean ====
/-
  The reference program's result as a function of its eleven argument arrays: two dense layers, each
  over the neighbour sum of its input features, then the pooling tail.
-/
import proofs.«121350_j6502580486349_2_alg».proof.Proof.Gen.ReferenceIdeal.Run
import proofs.«121350_j6502580486349_2_alg».proof.Proof.RefParts
import proofs.«121350_j6502580486349_2_alg».proof.Proof.RefLayer

noncomputable section

namespace Cert.ReferenceIdeal.RefValue

open Cert.ReferenceIdeal Cert.ReferenceIdeal.Facts₀ Cert.ReferenceIdeal.RefParts Cert.ReferenceIdeal.RefLayer
open Idealize.ShloMosaic Idealize.ShloMosaic.TcCoe Idealize.SL.Sem

/-- The hidden features after the first layer. -/
def hidden1 (x : FVec Ideal S100000x128 .f32) (e : IVec S2x1600000 32) (w1l : FVec Ideal S128x128 .f32) (b1 : FVec Ideal S128 .f32)
    (w1r : FVec Ideal S128x128 .f32) : FVec Ideal S100000x128 .f32 :=
  refLayer (agg e x) x (degInv e) (tr w1l) (tr w1r) b1

/-- The hidden features after the second layer. -/
def hidden2 (x : FVec Ideal S100000x128 .f32) (e : IVec S2x1600000 32) (w1l : FVec Ideal S128x128 .f32) (b1 : FVec Ideal S128 .f32)
    (w1r w2l : FVec Ideal S128x128 .f32) (b2 : FVec Ideal S128 .f32) (w2r : FVec Ideal S128x128 .f32) : FVec Ideal S100000x128 .f32 :=
  refLayer (agg e (hidden1 x e w1l b1 w1r)) (hidden1 x e w1l b1 w1r) (degInv e) (tr w2l) (tr w2r) b2

/-- The reference's result of its arguments. -/
def result (x : FVec Ideal S100000x128 .f32) (e : IVec S2x1600000 32) (batch : IVec S100000 32) (w1l : FVec Ideal S128x128 .f32)
    (b1 : FVec Ideal S128 .f32) (w1r w2l : FVec Ideal S128x128 .f32) (b2 : FVec Ideal S128 .f32) (w2r : FVec Ideal S128x128 .f32)
    (wlin : FVec Ideal S4x128 .f32) (blin : FVec Ideal S4 .f32) : FVec Ideal S512x4 .f32 :=
  tail (hidden2 x e w1l b1 w1r w2l b2 w2r) batch wlin blin

set_option maxRecDepth 8192 in
/-- The run's composed term is that function of the launch contents of the arguments. -/
theorem res_eq (m : (ℓ : Loc nD τ sig) → Buf (Elt Ideal) ℓ) (c : Dev nD) :
    Value.res_main_v71 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold Value.res_main_v71 result hidden2 hidden1 refLayer tail agg degInv tr srcCol dstCol srcRaw dstRaw
  rfl

end Cert.ReferenceIdeal.RefValue

end
-- ==== Proof.Bridge.lean ====
/-
  The two programs compute one function.

  Both results are the pooling tail of two dense layers, each over the neighbour sum of its input
  features.  The host-side pieces — edge columns, inverse degrees, neighbour sum, weight transpose, tail
  — are spelt over each program's own shape and dimension records, which hold the same numbers, so
  each reference piece is the kernel program's piece.  The dense layer is `Cert.Sage.layer` on both
  sides: on the kernel's side by the two grids' values, on the reference's by reading its host
  operations entry by entry and reordering the three terms of each entry.
-/
import proofs.«121350_j6502580486349_2_alg».proof.Defs
import proofs.«121350_j6502580486349_2_alg».proof.Proof.Gen.Kernel.Frame
import proofs.«121350_j6502580486349_2_alg».proof.Proof.Gen.KernelIdeal.Frame
import proofs.«121350_j6502580486349_2_alg».proof.Proof.Gen.Pre_finite_inputs
import proofs.«121350_j6502580486349_2_alg».proof.Proof.KernelRun
import proofs.«121350_j6502580486349_2_alg».proof.Proof.KernelWalk
import proofs.«121350_j6502580486349_2_alg».proof.Proof.RefValue

noncomputable section

namespace Cert.Proof.Bridge

open Idealize.ShloMosaic Idealize.ShloMosaic.TcCoe Idealize.SL.Sem

/-! ## Each reference piece is the kernel program's piece -/

theorem agg_eq (e : IVec Cert.KernelIdeal.S2x1600000 32) (h : FVec Ideal Cert.KernelIdeal.S100000x128 .f32) :
    Cert.ReferenceIdeal.RefParts.agg e h = Cert.KernelIdeal.HostParts.agg e h := rfl

theorem degInv_eq (e : IVec Cert.KernelIdeal.S2x1600000 32) :
    Cert.ReferenceIdeal.RefParts.degInv e = Cert.KernelIdeal.HostParts.degInv e := rfl

theorem tr_eq (w : FVec Ideal Cert.KernelIdeal.S128x128 .f32) :
    Cert.ReferenceIdeal.RefParts.tr w = Cert.KernelIdeal.HostParts.tr w := rfl

theorem tail_eq (h : FVec Ideal Cert.KernelIdeal.S100000x128 .f32) (batch : IVec Cert.KernelIdeal.S100000 32)
    (wlin : FVec Ideal Cert.KernelIdeal.S4x128 .f32) (blin : FVec Ideal Cert.KernelIdeal.S4 .f32) :
    Cert.ReferenceIdeal.RefParts.tail h batch wlin blin = Cert.KernelIdeal.HostParts.tail h batch wlin blin := rfl

/-! ## The results -/

/-- The reference's function of the kernel program's launch arguments is the kernel program's result. -/
theorem result_eq (m : (ℓ : Loc Cert.KernelIdeal.nD Cert.KernelIdeal.τ Cert.KernelIdeal.sig) → Buf (Elt Ideal) ℓ)
    (c : Dev Cert.KernelIdeal.nD) :
    Cert.ReferenceIdeal.RefValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) = Cert.KernelIdeal.Walk.result m c := by
  unfold Cert.ReferenceIdeal.RefValue.result Cert.ReferenceIdeal.RefValue.hidden2 Cert.ReferenceIdeal.RefValue.hidden1
    Cert.KernelIdeal.Walk.result Cert.KernelIdeal.Walk.h2 Cert.KernelIdeal.Walk.h1
  simp only [Cert.ReferenceIdeal.RefLayer.refLayer_eq, agg_eq, degInv_eq, tr_eq, tail_eq]

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the same result: the kernel program's by
    its run and the walk through its five segments, the reference's by its run, read as the same function. -/
theorem algebraic : Cert.algebraic_KernelIdeal_ReferenceIdeal := by
  intro m ρ m' ρ' _ hagree
  refine ⟨fun c => Cert.KernelIdeal.Walk.result m c, ?_, ?_⟩
  · exact (θ_run Cert.KernelIdeal.defs _ _).mono
      (fun r h c => ⟨(h c).1.trans (Cert.KernelIdeal.Walk.w5_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefValue.res_eq, a0, a1, a2, a3, a4, a5, a6, a7, a8, a9, a10]
    exact result_eq m c

end Cert.Proof.Bridge

end
-- ==== Proof.lean ====
/-
  A two-layer graph convolution with mean pooling, as a tiled kernel program and as a plain reference,
  compute the same extended-real function of their arguments.

  Each layer maps node features `h` to `max (A(h) · d · Wl + h · Wr + b, 0)`: `A(h)` the sum over incoming
  edges of the source node's row of `h`, `d` the inverse in-degree of the node (at least one edge
  counted), `Wl` / `Wr` the transposed weights, `b` the bias.  The kernel program computes the dense part
  of each layer in a grid of 25 row blocks of 4000 nodes; the reference computes it with whole-array host
  operations.  Entry by entry the two dense parts are the same two contractions over 128 features and
  the same bias, added in different orders; addition of extended reals is commutative and associative,
  so the entries agree with no finiteness assumption.  The neighbour sums, the inverse degrees and the
  pooling tail are the same host operations applied to equal arguments on both sides, and a change of
  float format is the identity on extended reals.

  `Bridge.lean` states the five claims; the modules it imports hold the layer's specification, the
  body's value per grid point, each grid's output array, the walk through the kernel program's five
  segments, and the reference's dense layer read entry by entry.
-/
import proofs.«121350_j6502580486349_2_alg».proof.Defs
import proofs.«121350_j6502580486349_2_alg».proof.Proof.Gen.Kernel
import proofs.«121350_j6502580486349_2_alg».proof.Proof.Gen.KernelIdeal
import proofs.«121350_j6502580486349_2_alg».proof.Proof.Gen.ReferenceIdeal
import proofs.«121350_j6502580486349_2_alg».proof.Proof.Gen.Pre_finite_inputs
import proofs.«121350_j6502580486349_2_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Bridge.frame_k, Cert.Proof.Bridge.frame_ki, Cert.Proof.Bridge.frame_ri, Cert.Proof.Bridge.preserves,
    Cert.Proof.Bridge.algebraic⟩

end Cert.Proof

end
